-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x80 : Shape := ⟨3, ![4, 100, 80]⟩
abbrev S4x100x256x256 : Shape := ⟨4, ![4, 100, 256, 256]⟩
abbrev S4x20x256x256 : Shape := ⟨4, ![4, 20, 256, 256]⟩
abbrev S4x20 : Shape := ⟨2, ![4, 20]⟩
abbrev S_ : Shape := ⟨0, ![]⟩

class Facts : Prop where
  bcast_S_S4x100x80 : S_.BroadcastsInDim S4x100x80 (![] : Fin 0 → Fin S4x100x80.rank)
  reducesTo_S4x100x80_S_d0_1_2 : S4x100x80.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x20x256x256 : S_.BroadcastsInDim S4x20x256x256 (![] : Fin 0 → Fin S4x20x256x256.rank)
  reducesTo_S4x20x256x256_S_d0_1_2_3 : S4x20x256x256.ReducesTo [0, 1, 2, 3] S_

variable [Facts]

def fn {F : FTy → Type} [FloatOps F] (main_arg0 : FVec F S4x100x80 .f32) (main_arg1 : FVec F S4x100x256x256 .f32) (main_arg2 : FVec F S4x20x256x256 .f32) (main_arg3 : IVec S4x20 32) : IVec S_ 1 :=
  let main_v0 : FVec F S4x100x80 .f32 := Host.absf main_arg0
  let main_cst : FVec F S_ .f32 := constant S_ .f32 0x7F800000#32
  let main_v1 : FVec F S4x100x80 .f32 := broadcastInDim S4x100x80 ![] bcast_S_S4x100x80 main_cst
  let main_v2 : IVec S4x100x80 1 := cmpf .olt main_v0 main_v1
  let main_c : IVec S_ 1 := constantI S_ 1 1#1
  let main_v3 : IVec S_ 1 := (fun x v => Host.reduce IntOp.andi x v reducesTo_S4x100x80_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S4x20x256x256 .f32 := Host.absf main_arg2
  let main_cst_2 : FVec F S_ .f32 := constant S_ .f32 0x7F800000#32
  let main_v10 : FVec F S4x20x256x256 .f32 := broadcastInDim S4x20x256x256 ![] bcast_S_S4x20x256x256 main_cst_2
  let main_v11 : IVec S4x20x256x256 1 := cmpf .olt main_v9 main_v10
  let main_c_3 : IVec S_ 1 := constantI S_ 1 1#1
  let main_v12 : IVec S_ 1 := (fun x v => Host.reduce IntOp.andi x v reducesTo_S4x20x256x256_S_d0_1_2_3 h_S_) main_v11 main_c_3
  let main_v13 : IVec S_ 1 := andi main_v8 main_v12
  main_v13
-- ==== Kernel.lean ====
abbrev S4x100x80 : Shape := ⟨3, ![4, 100, 80]⟩
abbrev S4x100x256x256 : Shape := ⟨4, ![4, 100, 256, 256]⟩
abbrev S4x20x256x256 : Shape := ⟨4, ![4, 20, 256, 256]⟩
abbrev S4x20 : Shape := ⟨2, ![4, 20]⟩
abbrev S4x100x65536 : Shape := ⟨3, ![4, 100, 65536]⟩
abbrev S4x20x65536 : Shape := ⟨3, ![4, 20, 65536]⟩
abbrev S4x100x20 : Shape := ⟨3, ![4, 100, 20]⟩
abbrev S1x100x16384 : Shape := ⟨3, ![1, 100, 16384]⟩
abbrev S1x20x16384 : Shape := ⟨3, ![1, 20, 16384]⟩
abbrev S1x100x20 : Shape := ⟨3, ![1, 100, 20]⟩
abbrev S100x20 : Shape := ⟨2, ![100, 20]⟩
abbrev S100x1 : Shape := ⟨2, ![100, 1]⟩
abbrev S20x1 : Shape := ⟨2, ![20, 1]⟩
abbrev S100x16384 : Shape := ⟨2, ![100, 16384]⟩
abbrev S20x16384 : Shape := ⟨2, ![20, 16384]⟩
abbrev S100 : Shape := ⟨1, ![100]⟩
abbrev S20 : Shape := ⟨1, ![20]⟩
abbrev S1x20 : Shape := ⟨2, ![1, 20]⟩
abbrev S4x1x20 : Shape := ⟨3, ![4, 1, 20]⟩
abbrev S_ : Shape := ⟨0, ![]⟩
abbrev S4x100x20x1 : Shape := ⟨4, ![4, 100, 20, 1]⟩
abbrev S1 : Shape := ⟨1, ![1]⟩
abbrev S1x1x1x1 : Shape := ⟨4, ![1, 1, 1, 1]⟩

abbrev nBuf : Space → Nat
  | .hbm => 36
  | .vmem => 9
  | .smem => 0
  | _ => 0

abbrev bufTy : (tb : Table) → Fin (tcTables nBuf tb) → BufTy
  | .hbm, ⟨0, _⟩ => ⟨S4x100x80, .f32⟩
  | .hbm, ⟨1, _⟩ => ⟨S4x100x256x256, .f32⟩
  | .hbm, ⟨2, _⟩ => ⟨S4x20x256x256, .f32⟩
  | .hbm, ⟨3, _⟩ => ⟨S4x20, .i32⟩
  | .hbm, ⟨4, _⟩ => ⟨S4x100x65536, .f32⟩
  | .hbm, ⟨5, _⟩ => ⟨S4x20x65536, .f32⟩
  | .hbm, ⟨6, _⟩ => ⟨S4x100x20, .f32⟩
  | .hbm, ⟨7, _⟩ => ⟨S4x1x20, .i32⟩
  | .hbm, ⟨8, _⟩ => ⟨S4x100x20, .i32⟩
  | .hbm, ⟨9, _⟩ => ⟨S_, .i32⟩
  | .hbm, ⟨10, _⟩ => ⟨S4x100x20, .i32⟩
  | .hbm, ⟨11, _⟩ => ⟨S4x100x20, .i1⟩
  | .hbm, ⟨12, _⟩ => ⟨S_, .i32⟩
  | .hbm, ⟨13, _⟩ => ⟨S4x100x20, .i32⟩
  | .hbm, ⟨14, _⟩ => ⟨S4x100x20, .i32⟩
  | .hbm, ⟨15, _⟩ => ⟨S4x100x20, .i32⟩
  | .hbm, ⟨16, _⟩ => ⟨S4x100x20x1, .i32⟩
  | .hbm, ⟨17, _⟩ => ⟨S1, .i32⟩
  | .hbm, ⟨18, _⟩ => ⟨S_, .i32⟩
  | .hbm, ⟨19, _⟩ => ⟨S4x100x20x1, .i32⟩
  | .hbm, ⟨20, _⟩ => ⟨S4x100x20x1, .i1⟩
  | .hbm, ⟨21, _⟩ => ⟨S1x1x1x1, .i32⟩
  | .hbm, ⟨22, _⟩ => ⟨S4x100x20x1, .i32⟩
  | .hbm, ⟨23, _⟩ => ⟨S4x100x20x1, .i1⟩
  | .hbm, ⟨24, _⟩ => ⟨S4x100x20x1, .i1⟩
  | .hbm, ⟨25, _⟩ => ⟨S_, .i1⟩
  | .hbm, ⟨26, _⟩ => ⟨S4x100x20, .i1⟩
  | .hbm, ⟨27, _⟩ => ⟨S4x100x20, .f32⟩
  | .hbm, ⟨28, _⟩ => ⟨S_, .f32⟩
  | .hbm, ⟨29, _⟩ => ⟨S4x100x20, .f32⟩
  | .hbm, ⟨30, _⟩ => ⟨S4x100x20, .f32⟩
  | .hbm, ⟨31, _⟩ => ⟨S4x100x20, .f32⟩
  | .hbm, ⟨32, _⟩ => ⟨S_, .f32⟩
  | .hbm, ⟨33, _⟩ => ⟨S4x100x20, .f32⟩
  | .hbm, ⟨34, _⟩ => ⟨S4x100x20, .f32⟩
  | .hbm, ⟨35, _⟩ => ⟨S4x100x20, .f32⟩
  | .local _ .vmem, ⟨0, _⟩ => ⟨S1x100x16384, .f32⟩
  | .local _ .vmem, ⟨1, _⟩ => ⟨S1x100x16384, .f32⟩
  | .local _ .vmem, ⟨2, _⟩ => ⟨S1x20x16384, .f32⟩
  | .local _ .vmem, ⟨3, _⟩ => ⟨S1x20x16384, .f32⟩
  | .local _ .vmem, ⟨4, _⟩ => ⟨S1x100x20, .f32⟩
  | .local _ .vmem, ⟨5, _⟩ => ⟨S1x100x20, .f32⟩
  | .local _ .vmem, ⟨6, _⟩ => ⟨S100x20, .f32⟩
  | .local _ .vmem, ⟨7, _⟩ => ⟨S100x1, .f32⟩
  | .local _ .vmem, ⟨8, _⟩ => ⟨S20x1, .f32⟩
  | _, _ => ⟨S4x100x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_20 : BitVec 32 := 0#32
  let v32 : BitVec 1 := Scalar.cmpi .ne v31 c0_i32_20
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x256x256_S4x100x65536 : S4x100x256x256.ShapeCasts S4x100x65536
  shapeCasts_S4x20x256x256_S4x20x65536 : S4x20x256x256.ShapeCasts S4x20x65536
  inb_S100x20_S100x20_0_0 : ∀ a, (![0, 0] : Fin 2 → Nat) a + S100x20.size a ≤ S100x20.size a
  h_S100x20 : 0 < S100x20.numel
  shapeCasts_S100x20_S100x20 : S100x20.ShapeCasts S100x20
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x100x16384_S1x100x16384_0_0_0 : ∀ a, (![0, 0, 0] : Fin 3 → Nat) a + S1x100x16384.size a ≤ S1x100x16384.size a
  h_S1x100x16384 : 0 < S1x100x16384.numel
  shapeCasts_S1x100x16384_S100x16384 : S1x100x16384.ShapeCasts S100x16384
  inb_S1x20x16384_S1x20x16384_0_0_0 : ∀ a, (![0, 0, 0] : Fin 3 → Nat) a + S1x20x16384.size a ≤ S1x20x16384.size a
  h_S1x20x16384 : 0 < S1x20x16384.numel
  shapeCasts_S1x20x16384_S20x16384 : S1x20x16384.ShapeCasts S20x16384
  bitsLt_bf16_f32 : FTy.bits .bf16 < FTy.bits .f32
  reduces_S100x16384_S100 : S100x16384.Reduces [1] S100
  shapeCasts_S100_S100x1 : S100.ShapeCasts S100x1
  reduces_S20x16384_S20 : S20x16384.Reduces [1] S20
  shapeCasts_S20_S20x1 : S20.ShapeCasts S20x1
  transposes_S20x1_p1_0_S1x20 : S20x1.Transposes [1, 0] S1x20
  broadcasts_S100x1_S100x20 : S100x1.Broadcasts S100x20
  broadcasts_S1x20_S100x20 : S1x20.Broadcasts S100x20
  inb_S1x100x20_S1x100x20_0_0_0 : ∀ a, (![0, 0, 0] : Fin 3 → Nat) a + S1x100x20.size a ≤ S1x100x20.size a
  h_S1x100x20 : 0 < S1x100x20.numel
  shapeCasts_S1x100x20_S100x20 : S1x100x20.ShapeCasts S100x20
  shapeCasts_S100x20_S1x100x20 : S100x20.ShapeCasts S1x100x20
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  h_S_ : 0 < S_.numel
  dot_S100x16384_S20x16384_S100x20_1_1_0_0_n_n_wf : DotDims.WF S100x16384 S20x16384 S100x20 [1] [1] [0] [0] [] []
  gather_S4x100x80_S4x100x20x1_S4x100x20_n_2_01_01_2_3_111_wf : GatherDims.WF S4x100x80 S4x100x20x1 S4x100x20 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x16384.size a ≤ S4x100x65536.size a
  hwx0_0 : ∀ i : grid0.Coords, EltTy.bits .f32 = 32 ∨ (Rect.block (s := S4x100x65536) S1x100x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x16384.size a ≤ S4x20x65536.size a
  hwx0_1 : ∀ i : grid0.Coords, EltTy.bits .f32 = 32 ∨ (Rect.block (s := S4x20x65536) S1x20x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x20.size a ≤ S4x100x20.size a
  hwx0_2 : ∀ i : grid0.Coords, EltTy.bits .f32 = 32 ∨ (Rect.block (s := S4x100x20) S1x100x20.size (cc0_transform_2 i) (hinb0_2 i)).WholeWords (EltTy.packing .f32)

variable [Facts₀]

def dot_S100x16384_S20x16384_S100x20_1_1_0_0_n_n : DotDims S100x16384 S20x16384 S100x20 where
  lhsContracting := [1]
  rhsContracting := [1]
  lhsNonContracting := [0]
  rhsNonContracting := [0]
  lhsBatch := []
  rhsBatch := []
  wf := dot_S100x16384_S20x16384_S100x20_1_1_0_0_n_n_wf
def gather_S4x100x80_S4x100x20x1_S4x100x20_n_2_01_01_2_3_111 : GatherDims S4x100x80 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x80_S4x100x20x1_S4x100x20_n_2_01_01_2_3_111_wf

abbrev win0_0 : Pipeline.Window sig grid0 :=
  Pipeline.Window.ofSpec (Memref.whole main_v0) S1x100x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x20x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x80 : Shape := ⟨3, ![4, 100, 80]⟩
abbrev S4x100x256x256 : Shape := ⟨4, ![4, 100, 256, 256]⟩
abbrev S4x20x256x256 : Shape := ⟨4, ![4, 20, 256, 256]⟩
abbrev S4x20 : Shape := ⟨2, ![4, 20]⟩
abbrev S4x100x65536 : Shape := ⟨3, ![4, 100, 65536]⟩
abbrev S_ : Shape := ⟨0, ![]⟩
abbrev S4x20x65536 : Shape := ⟨3, ![4, 20, 65536]⟩
abbrev S4x1x20 : Shape := ⟨3, ![4, 1, 20]⟩
abbrev S4x100x20 : Shape := ⟨3, ![4, 100, 20]⟩
abbrev S4x100x20x1 : Shape := ⟨4, ![4, 100, 20, 1]⟩
abbrev S1 : Shape := ⟨1, ![1]⟩
abbrev S1x1x1x1 : Shape := ⟨4, ![1, 1, 1, 1]⟩
abbrev S4x100 : Shape := ⟨2, ![4, 100]⟩
abbrev S4x100x1 : Shape := ⟨3, ![4, 100, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x100x80, .f32⟩
  | .hbm, ⟨1, _⟩ => ⟨S4x100x256x256, .f32⟩
  | .hbm, ⟨2, _⟩ => ⟨S4x20x256x256, .f32⟩
  | .hbm, ⟨3, _⟩ => ⟨S4x20, .i32⟩
  | .hbm, ⟨4, _⟩ => ⟨S4x100x65536, .f32⟩
  | .hbm, ⟨5, _⟩ => ⟨S4x100x65536, .f32⟩
  | .hbm, ⟨6, _⟩ => ⟨S4x100x65536, .f32⟩
  | .hbm, ⟨7, _⟩ => ⟨S_, .f32⟩
  | .hbm, ⟨8, _⟩ => ⟨S4x100x65536, .f32⟩
  | .hbm, ⟨9, _⟩ => ⟨S4x100x65536, .f32⟩
  | .hbm, ⟨10, _⟩ => ⟨S_, .f32⟩
  | .hbm, ⟨11, _⟩ => ⟨S4x100x65536, .f32⟩
  | .hbm, ⟨12, _⟩ => ⟨S4x100x65536, .f32⟩
  | .hbm, ⟨13, _⟩ => ⟨S4x20x65536, .f32⟩
  | .hbm, ⟨14, _⟩ => ⟨S4x1x20, .i32⟩
  | .hbm, ⟨15, _⟩ => ⟨S4x100x20, .i32⟩
  | .hbm, ⟨16, _⟩ => ⟨S_, .i32⟩
  | .hbm, ⟨17, _⟩ => ⟨S4x100x20, .i32⟩
  | .hbm, ⟨18, _⟩ => ⟨S4x100x20, .i1⟩
  | .hbm, ⟨19, _⟩ => ⟨S_, .i32⟩
  | .hbm, ⟨20, _⟩ => ⟨S4x100x20, .i32⟩
  | .hbm, ⟨21, _⟩ => ⟨S4x100x20, .i32⟩
  | .hbm, ⟨22, _⟩ => ⟨S4x100x20, .i32⟩
  | .hbm, ⟨23, _⟩ => ⟨S4x100x20x1, .i32⟩
  | .hbm, ⟨24, _⟩ => ⟨S1, .i32⟩
  | .hbm, ⟨25, _⟩ => ⟨S_, .i32⟩
  | .hbm, ⟨26, _⟩ => ⟨S4x100x20x1, .i32⟩
  | .hbm, ⟨27, _⟩ => ⟨S4x100x20x1, .i1⟩
  | .hbm, ⟨28, _⟩ => ⟨S1x1x1x1, .i32⟩
  | .hbm, ⟨29, _⟩ => ⟨S4x100x20x1, .i32⟩
  | .hbm, ⟨30, _⟩ => ⟨S4x100x20x1, .i1⟩
  | .hbm, ⟨31, _⟩ => ⟨S4x100x20x1, .i1⟩
  | .hbm, ⟨32, _⟩ => ⟨S_, .i1⟩
  | .hbm, ⟨33, _⟩ => ⟨S4x100x20, .i1⟩
  | .hbm, ⟨34, _⟩ => ⟨S4x100x20, .f32⟩
  | .hbm, ⟨35, _⟩ => ⟨S_, .f32⟩
  | .hbm, ⟨36, _⟩ => ⟨S4x100x20, .f32⟩
  | .hbm, ⟨37, _⟩ => ⟨S4x100x20, .f32⟩
  | .hbm, ⟨38, _⟩ => ⟨S4x100x20, .f32⟩
  | .hbm, ⟨39, _⟩ => ⟨S4x100x20, .f32⟩
  | .hbm, ⟨40, _⟩ => ⟨S_, .f32⟩
  | .hbm, ⟨41, _⟩ => ⟨S4x100, .f32⟩
  | .hbm, ⟨42, _⟩ => ⟨S_, .f32⟩
  | .hbm, ⟨43, _⟩ => ⟨S4x20, .f32⟩
  | .hbm, ⟨44, _⟩ => ⟨S4x100x20, .f32⟩
  | .hbm, ⟨45, _⟩ => ⟨S_, .f32⟩
  | .hbm, ⟨46, _⟩ => ⟨S4x100x20, .f32⟩
  | .hbm, ⟨47, _⟩ => ⟨S4x100x20, .f32⟩
  | .hbm, ⟨48, _⟩ => ⟨S4x100x1, .f32⟩
  | .hbm, ⟨49, _⟩ => ⟨S_, .f32⟩
  | .hbm, ⟨50, _⟩ => ⟨S4x100x1, .f32⟩
  | .hbm, ⟨51, _⟩ => ⟨S4x100x1, .f32⟩
  | .hbm, ⟨52, _⟩ => ⟨S4x1x20, .f32⟩
  | .hbm, ⟨53, _⟩ => ⟨S4x100x20, .f32⟩
  | .hbm, ⟨54, _⟩ => ⟨S4x100x20, .f32⟩
  | .hbm, ⟨55, _⟩ => ⟨S4x100x20, .f32⟩
  | .hbm, ⟨56, _⟩ => ⟨S4x100x20, .f32⟩
  | .hbm, ⟨57, _⟩ => ⟨S_, .f32⟩
  | .hbm, ⟨58, _⟩ => ⟨S4x100x20, .f32⟩
  | .hbm, ⟨59, _⟩ => ⟨S4x100x20, .f32⟩
  | .hbm, ⟨60, _⟩ => ⟨S4x100x20, .f32⟩
  | .hbm, ⟨61, _⟩ => ⟨S_, .f32⟩
  | .hbm, ⟨62, _⟩ => ⟨S4x100x20, .f32⟩
  | .hbm, ⟨63, _⟩ => ⟨S4x100x20, .f32⟩
  | .hbm, ⟨64, _⟩ => ⟨S_, .f32⟩
  | .hbm, ⟨65, _⟩ => ⟨S4x100x20, .f32⟩
  | .hbm, ⟨66, _⟩ => ⟨S4x100x20, .f32⟩
  | .hbm, ⟨67, _⟩ => ⟨S4x100x1, .f32⟩
  | .hbm, ⟨68, _⟩ => ⟨S4x1x20, .f32⟩
  | .hbm, ⟨69, _⟩ => ⟨S4x100x20, .f32⟩
  | .hbm, ⟨70, _⟩ => ⟨S4x100x20, .f32⟩
  | .hbm, ⟨71, _⟩ => ⟨S4x100x20, .f32⟩
  | .hbm, ⟨72, _⟩ => ⟨S_, .f32⟩
  | .hbm, ⟨73, _⟩ => ⟨S4x100x20, .f32⟩
  | .hbm, ⟨74, _⟩ => ⟨S4x100x20, .f32⟩
  | .hbm, ⟨75, _⟩ => ⟨S4x100x20, .f32⟩
  | .hbm, ⟨76, _⟩ => ⟨S_, .f32⟩
  | .hbm, ⟨77, _⟩ => ⟨S4x100x20, .f32⟩
  | .hbm, ⟨78, _⟩ => ⟨S4x100x20, .f32⟩
  | .hbm, ⟨79, _⟩ => ⟨S_, .f32⟩
  | .hbm, ⟨80, _⟩ => ⟨S4x100x20, .f32⟩
  | .hbm, ⟨81, _⟩ => ⟨S4x100x20, .f32⟩
  | .hbm, ⟨82, _⟩ => ⟨S_, .f32⟩
  | .hbm, ⟨83, _⟩ => ⟨S4x100x20, .f32⟩
  | .hbm, ⟨84, _⟩ => ⟨S4x100x20, .f32⟩
  | .hbm, ⟨85, _⟩ => ⟨S4x100x20, .f32⟩
  | .hbm, ⟨86, _⟩ => ⟨S_, .f32⟩
  | .hbm, ⟨87, _⟩ => ⟨S4x100x20, .f32⟩
  | .hbm, ⟨88, _⟩ => ⟨S4x100x20, .f32⟩
  | .hbm, ⟨89, _⟩ => ⟨S4x100x20, .f32⟩
  | _, _ => ⟨S4x100x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_v43 : Ref sig .tc := ⟨.hbm, 80, rfl⟩
abbrev main_v44 : Ref sig .tc := ⟨.hbm, 81, rfl⟩
abbrev main_cst_11 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]

class Facts₀ : Prop where
  shapeCasts_S4x100x256x256_S4x100x65536 : S4x100x256x256.ShapeCasts S4x100x65536
  bcast_S_S4x100x65536 : S_.BroadcastsInDim S4x100x65536 (![] : Fin 0 → Fin S4x100x65536.rank)
  shapeCasts_S4x20x256x256_S4x20x65536 : S4x20x256x256.ShapeCasts S4x20x65536
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  h_S_ : 0 < S_.numel
  reducesTo_S4x100x65536_S4x100_d2 : S4x100x65536.ReducesTo [2] S4x100
  reducesTo_S4x20x65536_S4x20_d2 : S4x20x65536.ReducesTo [2] S4x20
  bcast_S4x100_S4x100x1_0_1 : S4x100.BroadcastsInDim S4x100x1 (![0, 1] : Fin 2 → Fin S4x100x1.rank)
  bcast_S_S4x100x1 : S_.BroadcastsInDim S4x100x1 (![] : Fin 0 → Fin S4x100x1.rank)
  bcast_S4x100x1_S4x100x20_0_1_2 : S4x100x1.BroadcastsInDim S4x100x20 (![0, 1, 2] : Fin 3 → Fin S4x100x20.rank)
  gather_S4x100x80_S4x100x20x1_S4x100x20_n_2_01_01_2_3_111_wf : GatherDims.WF S4x100x80 S4x100x20x1 S4x100x20 [] [2] [0, 1] [2] [0, 1] 3 ![1, 1, 1]
  dot_S4x100x65536_S4x20x65536_S4x100x20_2_2_1_1_0_0_wf : DotDims.WF S4x100x65536 S4x20x65536 S4x100x20 [2] [2] [1] [1] [0] [0]

variable [Facts₀]

def gather_S4x100x80_S4x100x20x1_S4x100x20_n_2_01_01_2_3_111 : GatherDims S4x100x80 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x80_S4x100x20x1_S4x100x20_n_2_01_01_2_3_111_wf
def dot_S4x100x65536_S4x20x65536_S4x100x20_2_2_1_1_0_0 : DotDims S4x100x65536 S4x20x65536 S4x100x20 where
  lhsContracting := [2]
  rhsContracting := [2]
  lhsNonContracting := [1]
  rhsNonContracting := [1]
  lhsBatch := [0]
  rhsBatch := [0]
  wf := dot_S4x100x65536_S4x20x65536_S4x100x20_2_2_1_1_0_0_wf

class Facts : Prop extends Facts₀ where

variable [Facts]
-- ==== Proof.Pieces.lean ====
/-
  What one grid step leaves in the three scratch buffers and in the output block, as values.

  A step that starts a batch stores zeros and then adds the tile's contribution on top of them; every other step adds
  the tile's contribution to what the step before left; the last step of a batch also stores the cost computed from the
  three sums it has just updated. Each buffer is stored whole, so what is read back is the stored value itself.
-/
import proofs.«171785_j16990890623199_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch0_A (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : cond0_0 i) (hc1 : ¬cond0_1 i)
    (x0 : Vec F S1x100x16384 .f32) (x1 : Vec F S1x20x16384 .f32) :
    sout0_A_0 c i arg2 harg2 arg3 harg3 arg4 harg4 arg5 harg5 arg6 harg6 arg7 harg7 hc0 hc1 x0 x1 = k0_pay7 x0 x1 (k0_pay2 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S100x20) hz2, View.readCov_unit_zero (S := S100x20) _ hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch1_A (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : cond0_0 i) (hc1 : ¬cond0_1 i)
    (x0 : Vec F S1x100x16384 .f32) (x1 : Vec F S1x20x16384 .f32) :
    sout0_A_1 c i arg2 harg2 arg3 harg3 arg4 harg4 arg5 harg5 arg6 harg6 arg7 harg7 hc0 hc1 x0 x1 = k0_pay8 x0 (k0_pay3 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S100x1) hz2, View.readCov_unit_zero (S := S100x1) _ hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch2_A (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : cond0_0 i) (hc1 : ¬cond0_1 i)
    (x0 : Vec F S1x100x16384 .f32) (x1 : Vec F S1x20x16384 .f32) :
    sout0_A_2 c i arg2 harg2 arg3 harg3 arg4 harg4 arg5 harg5 arg6 harg6 arg7 harg7 hc0 hc1 x0 x1 = k0_pay9 x1 (k0_pay4 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S20x1) hz2, View.readCov_unit_zero (S := S20x1) _ hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch0_B (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : ¬cond0_1 i)
    (x0 : Vec F S1x100x16384 .f32) (x1 : Vec F S1x20x16384 .f32) (xs0 : Vec F S100x20 .f32) (xs1 : Vec F S100x1 .f32) (xs2 : Vec F S20x1 .f32) :
    sout0_B_0 c i arg2 harg2 arg3 harg3 arg4 harg4 arg5 harg5 arg6 harg6 arg7 harg7 hc0 hc1 x0 x1 xs0 xs1 xs2 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch1_B (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : ¬cond0_1 i)
    (x0 : Vec F S1x100x16384 .f32) (x1 : Vec F S1x20x16384 .f32) (xs0 : Vec F S100x20 .f32) (xs1 : Vec F S100x1 .f32) (xs2 : Vec F S20x1 .f32) :
    sout0_B_1 c i arg2 harg2 arg3 harg3 arg4 harg4 arg5 harg5 arg6 harg6 arg7 harg7 hc0 hc1 x0 x1 xs0 xs1 xs2 = k0_pay8 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch2_B (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : ¬cond0_1 i)
    (x0 : Vec F S1x100x16384 .f32) (x1 : Vec F S1x20x16384 .f32) (xs0 : Vec F S100x20 .f32) (xs1 : Vec F S100x1 .f32) (xs2 : Vec F S20x1 .f32) :
    sout0_B_2 c i arg2 harg2 arg3 harg3 arg4 harg4 arg5 harg5 arg6 harg6 arg7 harg7 hc0 hc1 x0 x1 xs0 xs1 xs2 = k0_pay9 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch0_C (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : cond0_1 i)
    (x0 : Vec F S1x100x16384 .f32) (x1 : Vec F S1x20x16384 .f32) (xs0 : Vec F S100x20 .f32) (xs1 : Vec F S100x1 .f32) (xs2 : Vec F S20x1 .f32) :
    sout0_C_0 c i arg2 harg2 arg3 harg3 arg4 harg4 arg5 harg5 arg6 harg6 arg7 harg7 hc0 hc1 x0 x1 xs0 xs1 xs2 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch1_C (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : cond0_1 i)
    (x0 : Vec F S1x100x16384 .f32) (x1 : Vec F S1x20x16384 .f32) (xs0 : Vec F S100x20 .f32) (xs1 : Vec F S100x1 .f32) (xs2 : Vec F S20x1 .f32) :
    sout0_C_1 c i arg2 harg2 arg3 harg3 arg4 harg4 arg5 harg5 arg6 harg6 arg7 harg7 hc0 hc1 x0 x1 xs0 xs1 xs2 = k0_pay8 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem scratch2_C (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : cond0_1 i)
    (x0 : Vec F S1x100x16384 .f32) (x1 : Vec F S1x20x16384 .f32) (xs0 : Vec F S100x20 .f32) (xs1 : Vec F S100x1 .f32) (xs2 : Vec F S20x1 .f32) :
    sout0_C_2 c i arg2 harg2 arg3 harg3 arg4 harg4 arg5 harg5 arg6 harg6 arg7 harg7 hc0 hc1 x0 x1 xs0 xs1 xs2 = k0_pay9 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

theorem out_C (c : Dev nD) (i : grid0.Coords) (arg2 : Memref sig .tc .vmem S1x100x16384 .f32) (harg2 : arg2.IsWhole) (arg3 : Memref sig .tc .vmem S1x20x16384 .f32) (harg3 : arg3.IsWhole) (arg4 : Memref sig .tc .vmem S1x100x20 .f32) (harg4 : arg4.IsWhole) (arg5 : Memref sig .tc .vmem S100x20 .f32) (harg5 : arg5.IsWhole) (arg6 : Memref sig .tc .vmem S100x1 .f32) (harg6 : arg6.IsWhole) (arg7 : Memref sig .tc .vmem S20x1 .f32) (harg7 : arg7.IsWhole) (hc0 : ¬cond0_0 i) (hc1 : cond0_1 i)
    (x0 : Vec F S1x100x16384 .f32) (x1 : Vec F S1x20x16384 .f32) (xs0 : Vec F S100x20 .f32) (xs1 : Vec F S100x1 .f32) (xs2 : Vec F S20x1 .f32) :
    out0_C_2 c i arg2 harg2 arg3 harg3 arg4 harg4 arg5 harg5 arg6 harg6 arg7 harg7 hc0 hc1 x0 x1 xs0 xs1 xs2 = k0_pay1 (k0_pay7 x0 x1 xs0) (k0_pay8 x0 xs1) (k0_pay9 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3, View.readCov_unit_zero (S := S100x20) _ hz2, View.readCov_unit_zero (S := S100x1) _ hz2,
    View.readCov_unit_zero (S := S20x1) _ hz2]
  simp only [View.readAt_eq_ld, harg2.read_unread, harg3.read_unread, harg5.read_unread, harg6.read_unread, harg7.read_unread,
    View.ld_unit_zero (S := S1x100x16384) hz3, View.ld_unit_zero (S := S1x20x16384) hz3, View.ld_unit_zero (S := S100x20) hz2,
    View.ld_unit_zero (S := S100x1) hz2, View.ld_unit_zero (S := S20x1) hz2]

end Cert.KernelIdeal.Pieces
end
-- ==== Proof.CostSpec.lean ====
/-
  The matching cost between predicted and target masks, as one function of the arrays, entry by entry.

  For a batch `b`, a prediction `n` and a target `m`, with p = sigmoid of the predicted mask and t the target mask over
  the 65536 pixels, the cost needs three sums over the pixels: pt = Σ p·t, ps = Σ p, ts = Σ t. From them
    mask = (0 − pt)/65536 − (((65536 − ps) − ts) + pt)/65536,    dice = 1 − (2·pt + 1)/((ps + ts) + 1),
  and the entry is 1·(−class) + (1·mask + 1·dice), the class term being a look-up of the logits at the target's label.

  The sums are written here as PARTIAL sums over the first K pixels (a pixel past the last reads as zero), so that a sum
  taken tile by tile is a one-line splitting of a range, and the full sum is the partial sum at K = 65536. Everything is
  over the extended reals: only associativity and commutativity of + are used, so nothing here needs finiteness.
-/
import Idealize.ShloMosaic.PureOps.Ideal
import Idealize.ShloMosaic.PureOps.Ideal.Laws
import Idealize.ShloMosaic.Lib.ValueIdx
import Mathlib.Algebra.BigOperators.Intervals

noncomputable section

namespace Cert.CostSpec

open Idealize.ShloMosaic Idealize.ShloMosaic.ValueIdx

/-- Predicted masks with the two pixel axes merged: [4, 100, 65536]. -/
abbrev PM := (⟨3, ![4, 100, 65536]⟩ : Shape).Idx → EReal
/-- Target masks with the two pixel axes merged: [4, 20, 65536]. -/
abbrev GM := (⟨3, ![4, 20, 65536]⟩ : Shape).Idx → EReal

/-- The sigmoid of pixel `k` of predicted mask (b, n); zero past the last pixel. -/
def prob (X : PM) (b : Fin 4) (n : Fin 100) (k : ℕ) : EReal :=
  if h : k < 65536 then Ideal.logistic (X (ix3 b n ⟨k, h⟩)) else 0

/-- Pixel `k` of target mask (b, m); zero past the last pixel. -/
def targ (Y : GM) (b : Fin 4) (m : Fin 20) (k : ℕ) : EReal :=
  if h : k < 65536 then Y (ix3 b m ⟨k, h⟩) else 0

/-- Σ p·t over the first `K` pixels. -/
def ptUpTo (X : PM) (Y : GM) (b : Fin 4) (n : Fin 100) (m : Fin 20) (K : ℕ) : EReal :=
  ∑ k ∈ Finset.range K, prob X b n k * targ Y b m k
/-- Σ p over the first `K` pixels. -/
def psUpTo (X : PM) (b : Fin 4) (n : Fin 100) (K : ℕ) : EReal := ∑ k ∈ Finset.range K, prob X b n k
/-- Σ t over the first `K` pixels. -/
def tsUpTo (Y : GM) (b : Fin 4) (m : Fin 20) (K : ℕ) : EReal := ∑ k ∈ Finset.range K, targ Y b m k

theorem ptUpTo_zero (X : PM) (Y : GM) (b : Fin 4) (n : Fin 100) (m : Fin 20) : ptUpTo X Y b n m 0 = 0 := by
  unfold ptUpTo; rw [Finset.range_zero, Finset.sum_empty]
theorem psUpTo_zero (X : PM) (b : Fin 4) (n : Fin 100) : psUpTo X b n 0 = 0 := by
  unfold psUpTo; rw [Finset.range_zero, Finset.sum_empty]
theorem tsUpTo_zero (Y : GM) (b : Fin 4) (m : Fin 20) : tsUpTo Y b m 0 = 0 := by
  unfold tsUpTo; rw [Finset.range_zero, Finset.sum_empty]

/-- One more tile of `B` pixels: the partial sum grows by the tile's own sum. -/
theorem ptUpTo_add (X : PM) (Y : GM) (b : Fin 4) (n : Fin 100) (m : Fin 20) (K B : ℕ) :
    ptUpTo X Y b n m (K + B) = ptUpTo X Y b n m K + ∑ j : Fin B, prob X b n (K + j.val) * targ Y b m (K + j.val) := by
  unfold ptUpTo; rw [Finset.sum_range_add]
  exact congrArg (_ + ·) (Finset.sum_range fun x => prob X b n (K + x) * targ Y b m (K + x))
theorem psUpTo_add (X : PM) (b : Fin 4) (n : Fin 100) (K B : ℕ) :
    psUpTo X b n (K + B) = psUpTo X b n K + ∑ j : Fin B, prob X b n (K + j.val) := by
  unfold psUpTo; rw [Finset.sum_range_add]
  exact congrArg (_ + ·) (Finset.sum_range fun x => prob X b n (K + x))
theorem tsUpTo_add (Y : GM) (b : Fin 4) (m : Fin 20) (K B : ℕ) :
    tsUpTo Y b m (K + B) = tsUpTo Y b m K + ∑ j : Fin B, targ Y b m (K + j.val) := by
  unfold tsUpTo; rw [Finset.sum_range_add]
  exact congrArg (_ + ·) (Finset.sum_range fun x => targ Y b m (K + x))

/-- Over all the pixels the partial sums are the plain sums. -/
theorem ptUpTo_full (X : PM) (Y : GM) (b : Fin 4) (n : Fin 100) (m : Fin 20) :
    ptUpTo X Y b n m 65536 = ∑ k : Fin 65536, Ideal.logistic (X (ix3 b n k)) * Y (ix3 b m k) := by
  unfold ptUpTo; rw [Finset.sum_range]
  refine Finset.sum_congr rfl fun k _ => ?_
  unfold prob targ; rw [dif_pos k.isLt, dif_pos k.isLt]
theorem psUpTo_full (X : PM) (b : Fin 4) (n : Fin 100) :
    psUpTo X b n 65536 = ∑ k : Fin 65536, Ideal.logistic (X (ix3 b n k)) := by
  unfold psUpTo; rw [Finset.sum_range]
  refine Finset.sum_congr rfl fun k _ => ?_
  unfold prob; rw [dif_pos k.isLt]
theorem tsUpTo_full (Y : GM) (b : Fin 4) (m : Fin 20) :
    tsUpTo Y b m 65536 = ∑ k : Fin 65536, Y (ix3 b m k) := by
  unfold tsUpTo; rw [Finset.sum_range]
  refine Finset.sum_congr rfl fun k _ => ?_
  unfold targ; rw [dif_pos k.isLt]

/-- Inside the array a pixel's probability and target are the entries themselves. -/
theorem prob_of_lt (X : PM) (b : Fin 4) (n : Fin 100) (k : ℕ) (h : k < 65536) :
    prob X b n k = Ideal.logistic (X (ix3 b n ⟨k, h⟩)) := by unfold prob; rw [dif_pos h]
theorem targ_of_lt (Y : GM) (b : Fin 4) (m : Fin 20) (k : ℕ) (h : k < 65536) :
    targ Y b m k = Y (ix3 b m ⟨k, h⟩) := by unfold targ; rw [dif_pos h]

/-- The mask term from the three sums. -/
def maskCost (pt ps ts : EReal) : EReal :=
  Ideal.div (Ideal.ofBits .f32 0x00000000#32 - pt) (Ideal.ofBits .f32 0x47800000#32)
    - Ideal.div (((Ideal.ofBits .f32 0x47800000#32 - ps) - ts) + pt) (Ideal.ofBits .f32 0x47800000#32)

/-- The dice term from the three sums. -/
def diceCost (pt ps ts : EReal) : EReal :=
  Ideal.ofBits .f32 0x3F800000#32
    - Ideal.div (Ideal.ofBits .f32 0x40000000#32 * pt + Ideal.ofBits .f32 0x3F800000#32)
        ((ps + ts) + Ideal.ofBits .f32 0x3F800000#32)

/-- Mask and dice terms, each with its unit weight, added. -/
def pairCost (pt ps ts : EReal) : EReal :=
  Ideal.ofBits .f32 0x3F800000#32 * maskCost pt ps ts + Ideal.ofBits .f32 0x3F800000#32 * diceCost pt ps ts

/-- The mask-and-dice part of entry (b, n, m), from the arrays. -/
def pairAt (X : PM) (Y : GM) (b : Fin 4) (n : Fin 100) (m : Fin 20) : EReal :=
  pairCost (ptUpTo X Y b n m 65536) (psUpTo X b n 65536) (tsUpTo Y b m 65536)

/-- The running product sums of batch `b` over the first `K` pixels, as the 100 × 20 matrix a step keeps them in. -/
def ptBlk (X : PM) (Y : GM) (b : Fin 4) (K : ℕ) : (⟨2, ![100, 20]⟩ : Shape).Idx → EReal :=
  fun y => ptUpTo X Y b (y 0) (y 1) K
/-- The running sigmoid row sums, as a 100 × 1 column. -/
def psBlk (X : PM) (b : Fin 4) (K : ℕ) : (⟨2, ![100, 1]⟩ : Shape).Idx → EReal := fun y => psUpTo X b (y 0) K
/-- The running target row sums, as a 20 × 1 column. -/
def tsBlk (Y : GM) (b : Fin 4) (K : ℕ) : (⟨2, ![20, 1]⟩ : Shape).Idx → EReal := fun y => tsUpTo Y b (y 0) K

/-- The mask-and-dice part of the whole result, entry by entry. -/
def pairArr (X : PM) (Y : GM) : (⟨3, ![4, 100, 20]⟩ : Shape).Idx → EReal := fun i => pairAt X Y (i 0) (i 1) (i 2)

/-- Zero less x is −x. -/
theorem zero_word_sub (x : EReal) : Ideal.ofBits .f32 0x00000000#32 - x = -x := by
  rw [Ideal.ofBits_zero_f32, zero_sub]

end Cert.CostSpec

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payloads.lean ====
/-
  The body's stored values read at coordinates, over the extended reals.

  A tile holds 16384 pixels of every predicted mask (a 1 × 100 × 16384 block) and of every target mask (1 × 20 × 16384).
  Each grid step adds to three running sums, entry by entry:
    the product sums  acc(n, q) + Σ_j sigmoid(pred(0, n, j)) · targ(0, q, j)   (a matrix product contracting the pixel axis),
    the row sums      acc(n) + Σ_j sigmoid(pred(0, n, j))   and   acc(q) + Σ_j targ(0, q, j)   (kept as columns),
  and the last step of a batch turns the three sums into the mask-plus-dice cost of every (prediction, target) pair.
  The rounding of the product's operands to a narrower format is the identity over the extended reals.
-/
import proofs.«171785_j16990890623199_2_alg».proof.Proof.Gen.KernelIdeal.Skeleton
import proofs.«171785_j16990890623199_2_alg».proof.Proof.CostSpec
import proofs.«171785_j16990890623199_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payloads

open Cert.KernelIdeal Cert.KernelIdeal.Gen Cert.CostSpec

/-- The three scratch buffers start a batch at zero. -/
theorem zero_pt (y : S100x20.Idx) : k0_pay2 (F := Ideal) y = 0 := by
  unfold k0_pay2
  rw [shapeCast_self]
  exact Ideal.ofBits_zero_f32
theorem zero_ps (y : S100x1.Idx) : k0_pay3 (F := Ideal) y = 0 := by
  unfold k0_pay3
  rw [shapeCast_self]
  exact Ideal.ofBits_zero_f32
theorem zero_ts (y : S20x1.Idx) : k0_pay4 (F := Ideal) y = 0 := by
  unfold k0_pay4
  rw [shapeCast_self]
  exact Ideal.ofBits_zero_f32

/-- The sigmoid of the predicted tile, read at (n, j). -/
theorem sig_apply (x0 : Vec Ideal S1x100x16384 .f32) (n : Fin 100) (j : Fin 16384) :
    k0_pay5 x0 (ix2 n j) = Ideal.logistic (x0 (ix3 (0 : Fin 1) n j)) := by
  unfold k0_pay5
  show Ideal.logistic (shapeCast S100x16384 x0 shapeCasts_S1x100x16384_S100x16384 (ix2 n j)) = _
  rw [shapeCast_1ab_ab_apply]
/-- The target tile, read at (q, j). -/
theorem tgt_apply (x1 : Vec Ideal S1x20x16384 .f32) (q : Fin 20) (j : Fin 16384) :
    k0_pay6 x1 (ix2 q j) = x1 (ix3 (0 : Fin 1) q j) := by
  unfold k0_pay6
  exact shapeCast_1ab_ab_apply x1 shapeCasts_S1x20x16384_S20x16384 q j

/-- The row sum of the tile's sigmoids, as a sum over the tile's pixels. -/
theorem rowsum_sig (x0 : Vec Ideal S1x100x16384 .f32) (n : Fin 100)
    (hacc : (0x00000000#32 : BitVec 32) = 0x00000000#32) :
    multiReduction .add [1] S100 (k0_pay5 x0) 0x00000000#32 reduces_S100x16384_S100 (.inl rfl) hacc (ix1 n)
      = ∑ j : Fin 16384, Ideal.logistic (x0 (ix3 (0 : Fin 1) n j)) := by
  refine (Ideal.multiReduction_add_single (k0_pay5 x0) 0x00000000#32 reduces_S100x16384_S100 (.inl rfl) hacc (ix1 n)).trans ?_
  refine Finset.sum_congr rfl fun j _ => ?_
  refine Eq.trans (congrArg (k0_pay5 x0) (funext fun a => Fin.ext (by match a with | ⟨0, _⟩ => rfl | ⟨1, _⟩ => rfl))) (sig_apply x0 n j)
/-- The row sum of the target tile. -/
theorem rowsum_tgt (x1 : Vec Ideal S1x20x16384 .f32) (q : Fin 20)
    (hacc : (0x00000000#32 : BitVec 32) = 0x00000000#32) :
    multiReduction .add [1] S20 (k0_pay6 x1) 0x00000000#32 reduces_S20x16384_S20 (.inl rfl) hacc (ix1 q)
      = ∑ j : Fin 16384, x1 (ix3 (0 : Fin 1) q j) := by
  refine (Ideal.multiReduction_add_single (k0_pay6 x1) 0x00000000#32 reduces_S20x16384_S20 (.inl rfl) hacc (ix1 q)).trans ?_
  refine Finset.sum_congr rfl fun j _ => ?_
  refine Eq.trans (congrArg (k0_pay6 x1) (funext fun a => Fin.ext (by match a with | ⟨0, _⟩ => rfl | ⟨1, _⟩ => rfl))) (tgt_apply x1 q j)

/-- The running column of sigmoid row sums after one more tile. -/
theorem ps_step (x0 : Vec Ideal S1x100x16384 .f32) (acc : Vec Ideal S100x1 .f32) (n : Fin 100) (u : Fin 1) :
    k0_pay8 x0 acc (ix2 n u) = acc (ix2 n u) + ∑ j : Fin 16384, Ideal.logistic (x0 (ix3 (0 : Fin 1) n j)) := by
  unfold k0_pay8
  rw [shapeCast_self]
  refine congrArg (acc (ix2 n u) + ·) ?_
  refine (Cert.Keepdims.shapeCast_a_a1_apply _ shapeCasts_S100_S100x1 n u).trans ?_
  exact rowsum_sig x0 n rfl
/-- The running column of target row sums after one more tile. -/
theorem ts_step (x1 : Vec Ideal S1x20x16384 .f32) (acc : Vec Ideal S20x1 .f32) (q : Fin 20) (u : Fin 1) :
    k0_pay9 x1 acc (ix2 q u) = acc (ix2 q u) + ∑ j : Fin 16384, x1 (ix3 (0 : Fin 1) q j) := by
  unfold k0_pay9
  rw [shapeCast_self]
  refine congrArg (acc (ix2 q u) + ·) ?_
  refine (Cert.Keepdims.shapeCast_a_a1_apply _ shapeCasts_S20_S20x1 q u).trans ?_
  exact rowsum_tgt x1 q rfl

/-- The product's left operand is read at the output's row, -/
theorem lhs_row (i : S100x20.Idx) (k : dot_S100x16384_S20x16384_S100x20_1_1_0_0_n_n.contr.Idx) : (dot_S100x16384_S20x16384_S100x20_1_1_0_0_n_n.lhsIdx i k 0).val = (i 0).val := by
  unfold DotDims.lhsIdx
  rw [dif_neg (show ¬(0 : Fin S100x16384.rank) ∈ dot_S100x16384_S20x16384_S100x20_1_1_0_0_n_n.lhsBatch by decide),
    dif_pos (show (0 : Fin S100x16384.rank) ∈ dot_S100x16384_S20x16384_S100x20_1_1_0_0_n_n.lhsNonContracting by decide)]
  rfl
/-- and its right operand at the output's column. -/
theorem rhs_row (i : S100x20.Idx) (k : dot_S100x16384_S20x16384_S100x20_1_1_0_0_n_n.contr.Idx) : (dot_S100x16384_S20x16384_S100x20_1_1_0_0_n_n.rhsIdx i k 0).val = (i 1).val := by
  unfold DotDims.rhsIdx
  rw [dif_neg (show ¬(0 : Fin S20x16384.rank) ∈ dot_S100x16384_S20x16384_S100x20_1_1_0_0_n_n.rhsBatch by decide),
    dif_pos (show (0 : Fin S20x16384.rank) ∈ dot_S100x16384_S20x16384_S100x20_1_1_0_0_n_n.rhsNonContracting by decide)]
  rfl

/-- The product of the sigmoid tile with the target tile, contracting the pixel axis of both, read at (n, q). -/
theorem tile_product (lhs : FVec Ideal S100x16384 .bf16) (rhs : FVec Ideal S20x16384 .bf16) (n : Fin 100) (q : Fin 20) :
    matmul dot_S100x16384_S20x16384_S100x20_1_1_0_0_n_n none lhs rhs (constant S100x20 .f32 0x00000000#32) (ix2 n q)
      = ∑ j : Fin 16384, lhs (ix2 n j) * rhs (ix2 q j) := by
  simp only [matmul]
  rw [Ideal.matmul_constant_zero_apply,
    ← Equiv.sum_comp (ValueIdx.contrEquiv1 dot_S100x16384_S20x16384_S100x20_1_1_0_0_n_n 16384 rfl rfl).symm]
  refine Finset.sum_congr rfl fun k _ => ?_
  have hk := ValueIdx.contrEquiv1_symm_val dot_S100x16384_S20x16384_S100x20_1_1_0_0_n_n 16384 rfl rfl k
  have el : dot_S100x16384_S20x16384_S100x20_1_1_0_0_n_n.lhsIdx (ix2 n q)
      ((ValueIdx.contrEquiv1 dot_S100x16384_S20x16384_S100x20_1_1_0_0_n_n 16384 rfl rfl).symm k) = ix2 n k :=
    funext fun a => Fin.ext (by
      match a with
      | ⟨0, _⟩ => exact lhs_row _ _
      | ⟨1, _⟩ => exact (dot_S100x16384_S20x16384_S100x20_1_1_0_0_n_n.lhsIdx_val_of_single rfl _ _).trans hk)
  have er : dot_S100x16384_S20x16384_S100x20_1_1_0_0_n_n.rhsIdx (ix2 n q)
      ((ValueIdx.contrEquiv1 dot_S100x16384_S20x16384_S100x20_1_1_0_0_n_n 16384 rfl rfl).symm k) = ix2 q k :=
    funext fun a => Fin.ext (by
      match a with
      | ⟨0, _⟩ => exact rhs_row _ _
      | ⟨1, _⟩ => exact (dot_S100x16384_S20x16384_S100x20_1_1_0_0_n_n.rhsIdx_val_of_single rfl _ _).trans hk)
  rw [el, er]

/-- The running matrix of product sums after one more tile. -/
theorem pt_step (x0 : Vec Ideal S1x100x16384 .f32) (x1 : Vec Ideal S1x20x16384 .f32) (acc : Vec Ideal S100x20 .f32)
    (n : Fin 100) (q : Fin 20) :
    k0_pay7 x0 x1 acc (ix2 n q)
      = acc (ix2 n q) + ∑ j : Fin 16384, Ideal.logistic (x0 (ix3 (0 : Fin 1) n j)) * x1 (ix3 (0 : Fin 1) q j) := by
  unfold k0_pay7
  rw [shapeCast_self]
  refine congrArg (acc (ix2 n q) + ·) ?_
  refine (tile_product _ _ n q).trans ?_
  refine Finset.sum_congr rfl fun j _ => ?_
  show k0_pay5 x0 (ix2 n j) * k0_pay6 x1 (ix2 q j) = _
  rw [sig_apply, tgt_apply]

/-- The last step of a batch: the stored block is the mask-plus-dice cost of the three sums, entry by entry. -/
theorem cost_apply (pt : Vec Ideal S100x20 .f32) (ps : Vec Ideal S100x1 .f32) (ts : Vec Ideal S20x1 .f32)
    (u : Fin 1) (n : Fin 100) (q : Fin 20) :
    k0_pay1 pt ps ts (ix3 u n q) = pairCost (pt (ix2 n q)) (ps (ix2 n (0 : Fin 1))) (ts (ix2 q (0 : Fin 1))) := by
  have hcol : ∀ (v : Vec Ideal S100x1 .f32), broadcastTo S100x20 v broadcasts_S100x1_S100x20 (ix2 n q) = v (ix2 n (0 : Fin 1)) :=
    fun v => Cert.Keepdims.broadcastTo_a1_ab_apply v broadcasts_S100x1_S100x20 n q
  have hrow : broadcastTo S100x20 (transpose S1x20 [1, 0] ts transposes_S20x1_p1_0_S1x20) broadcasts_S1x20_S100x20 (ix2 n q)
      = ts (ix2 q (0 : Fin 1)) :=
    (broadcastTo_1b_ab_apply _ broadcasts_S1x20_S100x20 n q).trans (transpose_ix2_apply ts transposes_S20x1_p1_0_S1x20 (0 : Fin 1) q)
  unfold k0_pay1
  dsimp only
  refine (shapeCast_ab_1ab_apply _ shapeCasts_S100x20_S1x100x20 u n q).trans ?_
  simp only [mulf_apply, addf_apply, subf_apply, divf_apply, broadcast_apply, hcol, hrow]
  rfl

/-! ## One tile more: the running sums over the first k tiles become those over the first k + 1

  `x0` and `x1` stand for tile `k` of batch `b`: entry (0, n, j) of the tile is entry (b, n, 16384·k + j) of the array. -/

/-- At the start of a batch the three running sums are zero: the sums over no pixel. -/
theorem pt_start (X : PM) (Y : GM) (b : Fin 4) : k0_pay2 (F := Ideal) = ptBlk X Y b (0 * 16384) := by
  funext y
  rw [zero_pt]
  show 0 = ptUpTo X Y b (y 0) (y 1) (0 * 16384)
  rw [Nat.zero_mul]
  exact (ptUpTo_zero X Y b _ _).symm
theorem ps_start (X : PM) (b : Fin 4) : k0_pay3 (F := Ideal) = psBlk X b (0 * 16384) := by
  funext y
  rw [zero_ps]
  show 0 = psUpTo X b (y 0) (0 * 16384)
  rw [Nat.zero_mul]
  exact (psUpTo_zero X b _).symm
theorem ts_start (Y : GM) (b : Fin 4) : k0_pay4 (F := Ideal) = tsBlk Y b (0 * 16384) := by
  funext y
  rw [zero_ts]
  show 0 = tsUpTo Y b (y 0) (0 * 16384)
  rw [Nat.zero_mul]
  exact (tsUpTo_zero Y b _).symm

theorem pt_tile (X : PM) (Y : GM) (b : Fin 4) (k : ℕ) (hk : k < 4)
    (x0 : Vec Ideal S1x100x16384 .f32) (x1 : Vec Ideal S1x20x16384 .f32)
    (hx0 : ∀ (n : Fin 100) (j : Fin 16384) (hj : k * 16384 + j.val < 65536), x0 (ix3 (0 : Fin 1) n j) = X (ix3 b n ⟨k * 16384 + j.val, hj⟩))
    (hx1 : ∀ (q : Fin 20) (j : Fin 16384) (hj : k * 16384 + j.val < 65536), x1 (ix3 (0 : Fin 1) q j) = Y (ix3 b q ⟨k * 16384 + j.val, hj⟩))
    (acc : Vec Ideal S100x20 .f32) (hacc : acc = ptBlk X Y b (k * 16384)) :
    k0_pay7 x0 x1 acc = ptBlk X Y b ((k + 1) * 16384) := by
  subst hacc
  funext y
  obtain ⟨n, q, rfl⟩ : ∃ (n : Fin 100) (q : Fin 20), y = ix2 n q := ⟨y 0, y 1, eq_ix2 y⟩
  rw [pt_step]
  show ptUpTo X Y b n q (k * 16384) + _ = ptUpTo X Y b n q ((k + 1) * 16384)
  rw [show (k + 1) * 16384 = k * 16384 + 16384 by omega, ptUpTo_add]
  refine congrArg (_ + ·) (Finset.sum_congr rfl fun j _ => ?_)
  have hj : k * 16384 + j.val < 65536 := by have := j.isLt; omega
  rw [hx0 n j hj, hx1 q j hj, prob_of_lt X b n _ hj, targ_of_lt Y b q _ hj]

theorem ps_tile (X : PM) (b : Fin 4) (k : ℕ) (hk : k < 4) (x0 : Vec Ideal S1x100x16384 .f32)
    (hx0 : ∀ (n : Fin 100) (j : Fin 16384) (hj : k * 16384 + j.val < 65536), x0 (ix3 (0 : Fin 1) n j) = X (ix3 b n ⟨k * 16384 + j.val, hj⟩))
    (acc : Vec Ideal S100x1 .f32) (hacc : acc = psBlk X b (k * 16384)) :
    k0_pay8 x0 acc = psBlk X b ((k + 1) * 16384) := by
  subst hacc
  funext y
  obtain ⟨n, u, rfl⟩ : ∃ (n : Fin 100) (u : Fin 1), y = ix2 n u := ⟨y 0, y 1, eq_ix2 y⟩
  rw [ps_step]
  show psUpTo X b n (k * 16384) + _ = psUpTo X b n ((k + 1) * 16384)
  rw [show (k + 1) * 16384 = k * 16384 + 16384 by omega, psUpTo_add]
  refine congrArg (_ + ·) (Finset.sum_congr rfl fun j _ => ?_)
  have hj : k * 16384 + j.val < 65536 := by have := j.isLt; omega
  rw [hx0 n j hj, prob_of_lt X b n _ hj]

theorem ts_tile (Y : GM) (b : Fin 4) (k : ℕ) (hk : k < 4) (x1 : Vec Ideal S1x20x16384 .f32)
    (hx1 : ∀ (q : Fin 20) (j : Fin 16384) (hj : k * 16384 + j.val < 65536), x1 (ix3 (0 : Fin 1) q j) = Y (ix3 b q ⟨k * 16384 + j.val, hj⟩))
    (acc : Vec Ideal S20x1 .f32) (hacc : acc = tsBlk Y b (k * 16384)) :
    k0_pay9 x1 acc = tsBlk Y b ((k + 1) * 16384) := by
  subst hacc
  funext y
  obtain ⟨q, u, rfl⟩ : ∃ (q : Fin 20) (u : Fin 1), y = ix2 q u := ⟨y 0, y 1, eq_ix2 y⟩
  rw [ts_step]
  show tsUpTo Y b q (k * 16384) + _ = tsUpTo Y b q ((k + 1) * 16384)
  rw [show (k + 1) * 16384 = k * 16384 + 16384 by omega, tsUpTo_add]
  refine congrArg (_ + ·) (Finset.sum_congr rfl fun j _ => ?_)
  have hj : k * 16384 + j.val < 65536 := by have := j.isLt; omega
  rw [hx1 q j hj, targ_of_lt Y b q _ hj]

/-- Once all four tiles are in, the stored block is the pair cost of the full sums. -/
theorem cost_block (X : PM) (Y : GM) (b : Fin 4) (u : Fin 1) (n : Fin 100) (q : Fin 20) :
    k0_pay1 (F := Ideal) (ptBlk X Y b 65536) (psBlk X b 65536) (tsBlk Y b 65536) (ix3 u n q) = pairAt X Y b n q :=
  (cost_apply (ptBlk X Y b 65536) (psBlk X b 65536) (tsBlk Y b 65536) u n q).trans rfl

end Cert.KernelIdeal.Payloads

end
-- ==== Proof.Sums.lean ====
/-
  The three running sums, grid step by grid step.

  The grid runs over 4 batches × 4 tiles, the tile index fastest: step 4b + k works on tile k of batch b, pixels
  16384·k … 16384·k + 16383. After that step the three scratch buffers hold the sums over the first (k + 1) tiles of
  batch b: the step at k = 0 starts from zero, each later step adds its tile to what the step before left. After the
  fourth tile the sums are complete, and that step's output block is the pair cost of batch b.
-/
import proofs.«171785_j16990890623199_2_alg».proof.Proof.Gen.KernelIdeal.Frame
import proofs.«171785_j16990890623199_2_alg».proof.Proof.Pieces
import proofs.«171785_j16990890623199_2_alg».proof.Proof.Payloads
import proofs.«171785_j16990890623199_2_alg».proof.Proof.CostSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.CostSpec

variable (m : (ℓ : Loc nD τ sig) → Buf (Elt Ideal) ℓ)

/-- The predicted masks with their pixel axes merged, as the region finds them. -/
abbrev predArr (c : Dev nD) : PM := V m c main_v0
/-- The target masks with their pixel axes merged, as the region finds them. -/
abbrev targArr (c : Dev nD) : GM := V m c main_v1

/-- Where each window's block sits at step `t`: batch `t / 4` on the leading axis; tile `t % 4` on the pixel axis of the
    two inputs; the whole 100 × 20 (or 100 × 16384, 20 × 16384) extent otherwise. -/
theorem block_index : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- Tile `k` of batch `b` of the predicted masks, as step 4b + k reads it. -/
theorem pred_tile (c : Dev nD) (t : Fin cfg0.N) (b : Fin 4) (k : ℕ) (ht : t.val = 4 * b.val + k) (hk : k < 4)
    (n : Fin 100) (j : Fin 16384) (hj : k * 16384 + j.val < 65536) :
    (iblk m c 0 t : Vec Ideal S1x100x16384 .f32) (ix3 (0 : Fin 1) n j) = predArr m c (ix3 b n ⟨k * 16384 + j.val, hj⟩) := by
  obtain ⟨e0, e1, e2, -⟩ := block_index t
  unfold iblk
  rw [View.read_apply]
  show V m c main_v0 _ = V m c main_v0 _
  refine congrArg (V m c main_v0) (funext fun a => Fin.ext ?_)
  have hb := b.isLt
  match a with
  | ⟨0, _⟩ => show win0_0.index t 0 * 1 + 1 * 0 = b.val; rw [e0]; omega
  | ⟨1, _⟩ => show win0_0.index t 1 * 100 + 1 * n.val = n.val; rw [e1]; omega
  | ⟨2, _⟩ => show win0_0.index t 2 * 16384 + 1 * j.val = k * 16384 + j.val; rw [e2, ht]; omega

/-- Tile `k` of batch `b` of the target masks, as step 4b + k reads it. -/
theorem targ_tile (c : Dev nD) (t : Fin cfg0.N) (b : Fin 4) (k : ℕ) (ht : t.val = 4 * b.val + k) (hk : k < 4)
    (q : Fin 20) (j : Fin 16384) (hj : k * 16384 + j.val < 65536) :
    (iblk m c 1 t : Vec Ideal S1x20x16384 .f32) (ix3 (0 : Fin 1) q j) = targArr m c (ix3 b q ⟨k * 16384 + j.val, hj⟩) := by
  obtain ⟨-, -, -, e0, e1, e2, -⟩ := block_index t
  unfold iblk
  rw [View.read_apply]
  show V m c main_v1 _ = V m c main_v1 _
  refine congrArg (V m c main_v1) (funext fun a => Fin.ext ?_)
  have hb := b.isLt
  match a with
  | ⟨0, _⟩ => show win0_1.index t 0 * 1 + 1 * 0 = b.val; rw [e0]; omega
  | ⟨1, _⟩ => show win0_1.index t 1 * 20 + 1 * q.val = q.val; rw [e1]; omega
  | ⟨2, _⟩ => show win0_1.index t 2 * 16384 + 1 * j.val = k * 16384 + j.val; rw [e2, ht]; omega

/-- After step `n` the scratch buffers hold batch `b`'s sums over the first `K` pixels. -/
def SumsAt (c : Dev nD) (n : ℕ) (h : n < cfg0.N) (b : Fin 4) (K : ℕ) : Prop :=
  (outsAt0 m c n h).2.1 = ptBlk (predArr m c) (targArr m c) b K
  ∧ (outsAt0 m c n h).2.2.1 = psBlk (predArr m c) b K
  ∧ (outsAt0 m c n h).2.2.2 = tsBlk (targArr m c) b K

/-- The first step of a batch: zero, plus the first tile. -/
theorem first_step (c : Dev nD) (t : Fin cfg0.N) (b : Fin 4) (ht : t.val = 4 * b.val + 0) :
    SumsAt m c t.val t.isLt b ((0 + 1) * 16384) := by
  have h0 : t.val % 4 = 0 := by omega
  have h1 : ¬t.val % 4 = 3 := by omega
  have e := outsAt0_A m c t h0 h1
  refine ⟨(congrArg (fun p => p.2.1) e).trans ?_, (congrArg (fun p => p.2.2.1) e).trans ?_, (congrArg (fun p => p.2.2.2) e).trans ?_⟩
  · refine (Pieces.scratch0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans ?_
    exact Payloads.pt_tile (predArr m c) (targArr m c) b 0 (by omega) (iblk m c 0 t) (iblk m c 1 t)
      (fun n j hj => pred_tile m c t b 0 ht (by omega) n j hj) (fun q j hj => targ_tile m c t b 0 ht (by omega) q j hj)
      (k0_pay2 (F := Ideal)) (Payloads.pt_start (predArr m c) (targArr m c) b)
  · refine (Pieces.scratch1_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans ?_
    exact Payloads.ps_tile (predArr m c) b 0 (by omega) (iblk m c 0 t)
      (fun n j hj => pred_tile m c t b 0 ht (by omega) n j hj)
      (k0_pay3 (F := Ideal)) (Payloads.ps_start (predArr m c) b)
  · refine (Pieces.scratch2_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)).trans ?_
    exact Payloads.ts_tile (targArr m c) b 0 (by omega) (iblk m c 1 t)
      (fun q j hj => targ_tile m c t b 0 ht (by omega) q j hj)
      (k0_pay4 (F := Ideal)) (Payloads.ts_start (targArr m c) b)

/-- A later step of a batch: what the step before left, plus this step's tile. -/
theorem next_step (c : Dev nD) (t : Fin cfg0.N) (b : Fin 4) (k : ℕ) (hk : k + 1 < 4) (ht : t.val = 4 * b.val + (k + 1))
    (hprev : SumsAt m c (t.val - 1) (Nat.lt_of_le_of_lt (Nat.sub_le _ _) t.isLt) b ((k + 1) * 16384)) :
    SumsAt m c t.val t.isLt b ((k + 1 + 1) * 16384) := by
  have h0 : ¬t.val % 4 = 0 := by omega
  obtain ⟨p0, p1, p2⟩ := hprev
  by_cases h1 : t.val % 4 = 3
  · have e := outsAt0_C m c t h0 h1
    refine ⟨(congrArg (fun p => p.2.1) e).trans ?_, (congrArg (fun p => p.2.2.1) e).trans ?_, (congrArg (fun p => p.2.2.2) e).trans ?_⟩
    · refine (Pieces.scratch0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.pt_tile (predArr m c) (targArr m c) b (k + 1) hk (iblk m c 0 t) (iblk m c 1 t)
        (fun n j hj => pred_tile m c t b (k + 1) ht hk n j hj) (fun q j hj => targ_tile m c t b (k + 1) ht hk q j hj) _ p0
    · refine (Pieces.scratch1_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.ps_tile (predArr m c) b (k + 1) hk (iblk m c 0 t)
        (fun n j hj => pred_tile m c t b (k + 1) ht hk n j hj) _ p1
    · refine (Pieces.scratch2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.ts_tile (targArr m c) b (k + 1) hk (iblk m c 1 t)
        (fun q j hj => targ_tile m c t b (k + 1) ht hk q j hj) _ p2
  · have e := outsAt0_B m c t h0 h1
    refine ⟨(congrArg (fun p => p.2.1) e).trans ?_, (congrArg (fun p => p.2.2.1) e).trans ?_, (congrArg (fun p => p.2.2.2) e).trans ?_⟩
    · refine (Pieces.scratch0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.pt_tile (predArr m c) (targArr m c) b (k + 1) hk (iblk m c 0 t) (iblk m c 1 t)
        (fun n j hj => pred_tile m c t b (k + 1) ht hk n j hj) (fun q j hj => targ_tile m c t b (k + 1) ht hk q j hj) _ p0
    · refine (Pieces.scratch1_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.ps_tile (predArr m c) b (k + 1) hk (iblk m c 0 t)
        (fun n j hj => pred_tile m c t b (k + 1) ht hk n j hj) _ p1
    · refine (Pieces.scratch2_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
      exact Payloads.ts_tile (targArr m c) b (k + 1) hk (iblk m c 1 t)
        (fun q j hj => targ_tile m c t b (k + 1) ht hk q j hj) _ p2

/-- After step 4b + k the scratch buffers hold batch b's sums over the first k + 1 tiles: by induction on k. -/
theorem sums_after (c : Dev nD) (b : Fin 4) : ∀ (k : ℕ) (hk : k < 4) (t : Fin cfg0.N), t.val = 4 * b.val + k →
    SumsAt m c t.val t.isLt b ((k + 1) * 16384)
  | 0, _, t, ht => first_step m c t b ht
  | k + 1, hk, t, ht => by
    have hN : cfg0.N = 16 := N_0
    have hlt : t.val - 1 < cfg0.N := Nat.lt_of_le_of_lt (Nat.sub_le _ _) t.isLt
    exact next_step m c t b k hk ht (sums_after c b k (by omega) ⟨t.val - 1, hlt⟩ (by show t.val - 1 = 4 * b.val + k; omega))

/-- The last step of a batch stores the pair cost of the batch's full sums. -/
theorem last_step (c : Dev nD) (t : Fin cfg0.N) (b : Fin 4) (ht : t.val = 4 * b.val + 3) :
    (outsAt0 m c t.val t.isLt).1
      = k0_pay1 (F := Ideal) (ptBlk (predArr m c) (targArr m c) b 65536) (psBlk (predArr m c) b 65536) (tsBlk (targArr m c) b 65536) := by
  have h0 : ¬t.val % 4 = 0 := by omega
  have h1 : t.val % 4 = 3 := by omega
  obtain ⟨s0, s1, s2⟩ := sums_after m c b 3 (by omega) t ht
  have e := outsAt0_C m c t h0 h1
  have e0 := (congrArg (fun p => p.2.1) e).symm.trans s0
  have e1 := (congrArg (fun p => p.2.2.1) e).symm.trans s1
  have e2 := (congrArg (fun p => p.2.2.2) e).symm.trans s2
  refine (congrArg (fun p => p.1) e).trans ?_
  refine (Pieces.out_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  rw [← Pieces.scratch0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    ← Pieces.scratch1_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    ← Pieces.scratch2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact congr (congr (congrArg (k0_pay1 (F := Ideal)) e0) e1) e2

end Cert.KernelIdeal.Sums

end
-- ==== Proof.Result.lean ====
/-
  From the steps to the result array.

  The output window's block at step t is batch t / 4 of the [4, 100, 20] array, and it is written back at the last step of
  each batch only; the four written blocks tile the array, so after the region the array holds the pair cost of every
  (batch, prediction, target). The host lines after the region look the class logits up at the targets' labels, negate
  them, scale by one and add the region's array: the program's result.
-/
import proofs.«171785_j16990890623199_2_alg».proof.Proof.Gen.KernelIdeal.Frame
import proofs.«171785_j16990890623199_2_alg».proof.Proof.Gen.ReferenceIdeal.Read
import proofs.«171785_j16990890623199_2_alg».proof.Proof.Sums
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.CostSpec Cert.KernelIdeal.Sums

variable (m : (ℓ : Loc nD τ sig) → Buf (Elt Ideal) ℓ) (ρ : Dev nD → PrngReg)

/-- What the last step of a batch writes back is that batch's block of the pair-cost array. -/
theorem flushed_eq (c : Dev nD) (t : Fin cfg0.N) (hf : (cfg0.win 2).flush t = true) :
    (dats m 0 c).flushed 2 t
      = ((cfg0.win 2).blk t).view.read (Elt Ideal) (pairArr (predArr m c) (targArr m c)) := by
  have h3 : t.val % 4 = 3 := (flush0_2 t).mp hf
  have hN : t.val < 16 := lt_of_lt_of_eq t.isLt N_0
  obtain ⟨b, hb⟩ : ∃ b : Fin 4, t.val = 4 * b.val + 3 := ⟨⟨t.val / 4, by omega⟩, by show t.val = 4 * (t.val / 4) + 3; omega⟩
  obtain ⟨-, -, -, -, -, -, e0, e1, e2⟩ := block_index t
  show (cfg0.win 2).cut (grid0.coords t) ((dats m 0 c).after 2 t) = _
  rw [after0_2, last_step m c t b hb]
  funext y
  obtain ⟨u, n, q, rfl⟩ : ∃ (u : Fin 1) (n : Fin 100) (q : Fin 20), y = ix3 u n q := ⟨y 0, y 1, y 2, eq_ix3 y⟩
  have hi : ((cfg0.win 2).blk t).view.emb (ix3 u n q) = ix3 b n q := funext fun a => Fin.ext (by
    have hu : u.val = 0 := by omega
    match a with
    | ⟨0, _⟩ => show win0_2.index t 0 * 1 + 1 * u.val = b.val; rw [e0]; omega
    | ⟨1, _⟩ => show win0_2.index t 1 * 100 + 1 * n.val = n.val; rw [e1]; omega
    | ⟨2, _⟩ => show win0_2.index t 2 * 20 + 1 * q.val = q.val; rw [e2]; omega)
  rw [View.read_apply, hi]
  exact Payloads.cost_block (predArr m c) (targArr m c) b u n q

/-- Every entry of the array lies in the block some batch's last step writes back. -/
theorem covered (i : S4x100x20.Idx) :
    ∃ t : Fin cfg0.N, (cfg0.win 2).flush t = true ∧ i ∈ ((cfg0.win 2).blk t).view.set := by
  have hN : cfg0.N = 16 := N_0
  have h0 : (i 0).val < 4 := (i 0).isLt
  have h1 : (i 1).val < 100 := (i 1).isLt
  have h2 : (i 2).val < 20 := (i 2).isLt
  let t : Fin cfg0.N := ⟨4 * (i 0).val + 3, by omega⟩
  have htv : t.val = 4 * (i 0).val + 3 := rfl
  obtain ⟨-, -, -, -, -, -, e0, e1, e2⟩ := block_index t
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 100 ≤ (i 1).val ∧ (i 1).val < win0_2.index t (1 : Fin 3) * 100 + 100; rw [e1]; omega
  | ⟨2, _⟩ => show win0_2.index t (2 : Fin 3) * 20 ≤ (i 2).val ∧ (i 2).val < win0_2.index t (2 : Fin 3) * 20 + 20; rw [e2]; omega

/-- After the region the output array is the pair-cost array. -/
theorem region_out (c : Dev nD) : (dats m 0 c).arrAt 2 cfg0.N = pairArr (predArr m c) (targArr m c) :=
  (dats m 0 c).arrAt_eq_of_cover 2 (pairArr (predArr m c) (targArr m c)) (flushed_eq m c) covered

/-- The host lines after the region, as one function of the logits, the labels and the region's array: the class term
    (the reference's own look-up, negated and scaled by one) plus the region's array. -/
def hostTail (x0 : (⟨Cert.ReferenceIdeal.S4x100x80, .f32⟩ : BufTy).Contents (Elt Ideal))
    (x3 : (⟨Cert.ReferenceIdeal.S4x20, .i32⟩ : BufTy).Contents (Elt Ideal))
    (r : (⟨3, ![4, 100, 20]⟩ : Shape).Idx → EReal) : (⟨3, ![4, 100, 20]⟩ : Shape).Idx → EReal :=
  addf (F := Ideal) (φ := .f32) (Cert.ReferenceIdeal.Read.val_main_v44 (F := Ideal) x0 x3) r

/-- The lines after the region, read over any contents of the buffers they start from. -/
theorem tail_read (W : Valuation τ sig (Elt Ideal)) :
    StableHlo.after (List.flatten [hostOps1, hostOps1_1, hostOps1_2]) W (Proc.devRef .tc main_v9)
      = hostTail (W (Proc.devRef .tc main_arg0)) (W (Proc.devRef .tc main_arg3)) (W (Proc.devRef .tc main_v2)) := by
  simp only [hostOps1, hostOps1_1, hostOps1_2, List.flatten_cons, List.flatten_nil, List.append_nil, List.cons_append,
    List.nil_append]
  after_results_simp
  rfl

/-- The program's result, as a function of the argument arrays. -/
def result (c : Dev nD) : Buf (Elt Ideal) ((c.tc : Thread nD τ).loc main_v9) :=
  hostTail (m ((c.tc : Thread nD τ).loc main_arg0)) (m ((c.tc : Thread nD τ).loc main_arg3)) (pairArr (predArr m c) (targArr m c))

theorem tail_eq (c : Dev nD) :
    Pipeline.afterTail₀ cfgs (dats m) 0 (V0 m) [hostOps1, hostOps1_1, hostOps1_2] c main_v9 = result m c := by
  unfold Pipeline.afterTail₀
  refine (tail_read _).trans ?_
  unfold result
  have a0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  have a3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have a2 : Pipeline.withArrays (cfgs 0).spec c (V0 m c) (fun w => (dats m 0 c).arrAt w (cfgs 0).N) (Proc.devRef .tc main_v2)
      = pairArr (predArr m c) (targArr m c) :=
    (Pipeline.withArrays_arr spec0 launch0.win.arr_inj c _ _ 2).trans (region_out m c)
  rw [a0, a3, a2]

/-- The merged-pixel arrays the region reads are the arguments reshaped. -/
theorem pred_eq (c : Dev nD) :
    predArr m c = shapeCast S4x100x65536 (m ((c.tc : Thread nD τ).loc main_arg1)) shapeCasts_S4x100x256x256_S4x100x65536 := by
  show StableHlo.after hostOps0 (fun b => m (c, b)) (Proc.devRef .tc main_v0) = _
  after_results
  rfl
theorem targ_eq (c : Dev nD) :
    targArr m c = shapeCast S4x20x65536 (m ((c.tc : Thread nD τ).loc main_arg2)) shapeCasts_S4x20x256x256_S4x20x65536 := by
  show StableHlo.after hostOps0 (fun b => m (c, b)) (Proc.devRef .tc main_v1) = _
  after_results
  rfl

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.LibLogistic.lean ====
/-
  The logistic function in its two spellings, on the extended reals.

  On a real v,  1/2 · (1 + tanh (v/2)) = 1 / (1 + e^(−v)):  with a = e^(v/2) and b = e^(−v/2), a·b = 1 and e^(−v) = b²,
  so the left side is a/(a+b) and the right side 1/(1+b²) = a·b/(a·b + b²) = a/(a+b).
  At +∞ both sides are 1 (tanh is 1 there; e^(−∞) = 0), at −∞ both are 0 (tanh is −1; 1/(1+∞) = 1·∞⁻¹ = 0).
  So the two spellings are one function of an extended real, with no finiteness assumed.
-/
import Idealize.ShloMosaic.PureOps.Ideal

noncomputable section

namespace Cert.LibLogistic

open Idealize.ShloMosaic

/-- The float word of `1.0` denotes 1. -/
theorem word_one : Ideal.ofBits .f32 0x3F800000#32 = 1 := by
  simp [Ideal.ofBits, Ideal.ieee, -EReal.coe_mul]; norm_num

/-- The float word of `0.5` denotes the real 1/2. -/
theorem word_half : Ideal.ofBits .f32 0x3F000000#32 = ((1 / 2 : ℝ) : EReal) := by
  simp [Ideal.ofBits, Ideal.ieee, -EReal.coe_mul]; norm_num

/-- On the reals: 1/2 · (1 + tanh (v/2)) = 1 / (1 + e^(−v)). -/
theorem real_half_tanh (v : ℝ) : 1 / 2 * (1 + Real.tanh (1 / 2 * v)) = 1 / (1 + Real.exp (-v)) := by
  have ha : 0 < Real.exp (1 / 2 * v) := Real.exp_pos _
  have hb : 0 < Real.exp (-(1 / 2 * v)) := Real.exp_pos _
  have hab : Real.exp (1 / 2 * v) * Real.exp (-(1 / 2 * v)) = 1 := by
    rw [← Real.exp_add]; simp
  have hbb : Real.exp (-v) = Real.exp (-(1 / 2 * v)) * Real.exp (-(1 / 2 * v)) := by
    rw [← Real.exp_add]; congr 1; ring
  rw [Real.tanh_eq_sinh_div_cosh, Real.sinh_eq, Real.cosh_eq, hbb]
  set a := Real.exp (1 / 2 * v)
  set b := Real.exp (-(1 / 2 * v))
  have hs : a + b ≠ 0 := (add_pos ha hb).ne'
  have hq : 1 + b * b ≠ 0 := (add_pos one_pos (mul_pos hb hb)).ne'
  field_simp
  linear_combination (2 * b) * hab

/-- On the extended reals, at the conventions of the ideal instance (tanh ±∞ = ±1, e^(−∞) = 0, e^(+∞) = +∞,
    x / y = x · y⁻¹ off zero with ∞⁻¹ = 0):  1/2 · (1 + tanh (1/2 · v)) = 1 / (1 + e^(−v)) for EVERY v. -/
theorem half_tanh (v : EReal) :
    ((1 / 2 : ℝ) : EReal) * (1 + Ideal.tanh (((1 / 2 : ℝ) : EReal) * v)) = Ideal.div 1 (1 + Ideal.exp (-v)) := by
  induction v using EReal.rec with
  | bot =>
    have h1 : ((1 / 2 : ℝ) : EReal) * ⊥ = ⊥ := EReal.coe_mul_bot_of_pos (by norm_num)
    rw [h1, Ideal.tanh_bot, EReal.neg_bot, Ideal.exp_top]
    have h2 : (1 : EReal) + ⊤ = ⊤ := EReal.add_top_of_ne_bot (by decide)
    rw [h2, Ideal.div, if_neg (by decide), EReal.inv_top, mul_zero]
    have h3 : (1 : EReal) + -1 = 0 := by
      have h : ((1 : ℝ) : EReal) + ((-1 : ℝ) : EReal) = ((0 : ℝ) : EReal) := by rw [← EReal.coe_add]; norm_num
      simpa using h
    rw [h3, mul_zero]
  | top =>
    have h1 : ((1 / 2 : ℝ) : EReal) * ⊤ = ⊤ := EReal.coe_mul_top_of_pos (by norm_num)
    rw [h1, Ideal.tanh_top, EReal.neg_top, Ideal.exp_bot, add_zero, Ideal.div, if_neg (by norm_num), inv_one, mul_one]
    have h4 : ((1 / 2 : ℝ) : EReal) * (1 + 1) = ((1 : ℝ) : EReal) := by
      rw [show (1 : EReal) + 1 = ((2 : ℝ) : EReal) by norm_cast, ← EReal.coe_mul]; norm_num
    simpa using h4
  | coe r =>
    have hy : (1 + Real.exp (-r)) ≠ 0 := (add_pos one_pos (Real.exp_pos _)).ne'
    rw [← EReal.coe_mul, Ideal.tanh_coe, ← EReal.coe_neg, Ideal.exp_coe]
    have e1 : (1 : EReal) + ((Real.tanh (1 / 2 * r) : ℝ) : EReal) = ((1 + Real.tanh (1 / 2 * r) : ℝ) : EReal) := by norm_cast
    have e2 : (1 : EReal) + ((Real.exp (-r) : ℝ) : EReal) = ((1 + Real.exp (-r) : ℝ) : EReal) := by norm_cast
    rw [e1, e2, Ideal.div_coe hy, one_mul, ← EReal.coe_mul, real_half_tanh]

end Cert.LibLogistic

end
-- ==== Proof.RefCost.lean ====
/-
  The reference, entry by entry.

  The reference spells the sigmoid as 1 / (1 + e^(−x)), which is the logistic function itself; takes the three pixel sums
  in one piece each (one contraction, two row sums from zero); and forms the same mask and dice terms from them. Its result
  adds the class term and the mask term first and the dice term last; addition on the extended reals is associative, so this
  is the class term plus (mask + dice).
-/
import proofs.«171785_j16990890623199_2_alg».proof.Proof.Gen.ReferenceIdeal.Read
import proofs.«171785_j16990890623199_2_alg».proof.Proof.CostSpec
import proofs.«171785_j16990890623199_2_alg».proof.Proof.LibLogistic
import Idealize.ShloMosaic.Lib.ValueIdx

noncomputable section

open Idealize.ShloMosaic Idealize.ShloMosaic.TcCoe Idealize.ShloMosaic.ValueIdx

namespace Cert.ReferenceIdeal.RefCost

open Cert.ReferenceIdeal Cert.ReferenceIdeal.Read Cert.CostSpec

variable (x0 : (⟨S4x100x80, .f32⟩ : BufTy).Contents (Elt Ideal)) (x1 : (⟨S4x100x256x256, .f32⟩ : BufTy).Contents (Elt Ideal))
  (x2 : (⟨S4x20x256x256, .f32⟩ : BufTy).Contents (Elt Ideal)) (x3 : (⟨S4x20, .i32⟩ : BufTy).Contents (Elt Ideal))

/-- The predicted masks with their pixel axes merged. -/
abbrev predArr : PM := val_main_v0 (F := Ideal) x1
/-- The target masks with their pixel axes merged. -/
abbrev targArr : GM := val_main_v7 (F := Ideal) x2

/-- 1 / (1 + e^(−x)) is the logistic function. -/
theorem sig_apply (j : S4x100x65536.Idx) : val_main_v6 (F := Ideal) x1 j = Ideal.logistic (val_main_v0 (F := Ideal) x1 j) := by
  rw [val_main_v6_apply, val_main_v5_apply, val_main_v4_apply, val_main_v3_apply, val_main_v2_apply, val_main_v1_apply,
    val_main_cst_apply, val_main_cst_0_apply]
  simp only [Ideal.hostDivf_def, Ideal.addf_def, Ideal.hostUnary_exp_def, Ideal.hostNegf_def, Ideal.negf_def, Ideal.ofBits_def,
    Cert.LibLogistic.word_one]
  rfl

/-- The contraction over the pixels is the full product sum. -/
theorem pt_full (b : Fin 4) (n : Fin 100) (q : Fin 20) :
    val_main_v12 (F := Ideal) x1 x2 (ix3 b n q) = ptUpTo (predArr x1) (targArr x2) b n q 65536 := by
  rw [val_main_v12_apply, ptUpTo_full]
  refine Finset.sum_congr rfl fun k _ => ?_
  rw [sig_apply]
  have el : lidx_main_v12 (ix3 b n q) k = ix3 b n k :=
    funext fun a => Fin.ext (by match a with | ⟨0, _⟩ => rfl | ⟨1, _⟩ => rfl | ⟨2, _⟩ => rfl)
  have er : ridx_main_v12 (ix3 b n q) k = ix3 b q k :=
    funext fun a => Fin.ext (by match a with | ⟨0, _⟩ => rfl | ⟨1, _⟩ => rfl | ⟨2, _⟩ => rfl)
  rw [el, er]

/-- The sigmoid row sum from zero is the full row sum. -/
theorem ps_full (b : Fin 4) (n : Fin 100) : val_main_v13 (F := Ideal) x1 (ix2 b n) = psUpTo (predArr x1) b n 65536 := by
  rw [val_main_v13_apply, val_main_cst_1_apply, psUpTo_full]
  show Ideal.ofBits .f32 0x00000000#32 + _ = _
  rw [Ideal.ofBits_zero_f32, zero_add]
  refine Finset.sum_congr rfl fun k _ => ?_
  rw [sig_apply]
  exact congrArg (fun j => Ideal.logistic (val_main_v0 (F := Ideal) x1 j))
    (funext fun a => Fin.ext (by match a with | ⟨0, _⟩ => rfl | ⟨1, _⟩ => rfl | ⟨2, _⟩ => rfl))

/-- The target row sum from zero is the full row sum. -/
theorem ts_full (b : Fin 4) (q : Fin 20) : val_main_v14 (F := Ideal) x2 (ix2 b q) = tsUpTo (targArr x2) b q 65536 := by
  rw [val_main_v14_apply, val_main_cst_2_apply, tsUpTo_full]
  show Ideal.ofBits .f32 0x00000000#32 + _ = _
  rw [Ideal.ofBits_zero_f32, zero_add]
  refine Finset.sum_congr rfl fun k _ => ?_
  exact congrArg (val_main_v7 (F := Ideal) x2)
    (funext fun a => Fin.ext (by match a with | ⟨0, _⟩ => rfl | ⟨1, _⟩ => rfl | ⟨2, _⟩ => rfl))

/-- One entry of the reference's result: (class term + mask term) + dice term. -/
theorem entry (b : Fin 4) (n : Fin 100) (q : Fin 20) :
    val_main_v50 (F := Ideal) x0 x1 x2 x3 (ix3 b n q)
      = (val_main_v44 (F := Ideal) x0 x3 (ix3 b n q)
          + Ideal.ofBits .f32 0x3F800000#32
            * maskCost (ptUpTo (predArr x1) (targArr x2) b n q 65536) (psUpTo (predArr x1) b n 65536) (tsUpTo (targArr x2) b q 65536))
        + Ideal.ofBits .f32 0x3F800000#32
            * diceCost (ptUpTo (predArr x1) (targArr x2) b n q 65536) (psUpTo (predArr x1) b n 65536) (tsUpTo (targArr x2) b q 65536) := by
  have i18 : idx_main_v18 (idx_main_v22 (ix3 b n q)) = ix2 b n :=
    funext fun a => Fin.ext (by match a with | ⟨0, _⟩ => rfl | ⟨1, _⟩ => rfl)
  have i21 : idx_main_v21 (idx_main_v23 (ix3 b n q)) = ix2 b q :=
    funext fun a => Fin.ext (by match a with | ⟨0, _⟩ => rfl | ⟨1, _⟩ => rfl)
  have i33 : idx_main_v33 (idx_main_v35 (ix3 b n q)) = ix2 b n :=
    funext fun a => Fin.ext (by match a with | ⟨0, _⟩ => rfl | ⟨1, _⟩ => rfl)
  have i34 : idx_main_v34 (idx_main_v36 (ix3 b n q)) = ix2 b q :=
    funext fun a => Fin.ext (by match a with | ⟨0, _⟩ => rfl | ⟨1, _⟩ => rfl)
  simp only [val_main_v50_apply, val_main_v49_apply, val_main_v48_apply, val_main_cst_12_apply, val_main_v47_apply,
    val_main_v46_apply, val_main_v45_apply, val_main_cst_11_apply, val_main_v42_apply, val_main_v41_apply, val_main_cst_9_apply,
    val_main_v40_apply, val_main_v39_apply, val_main_v38_apply, val_main_cst_8_apply, val_main_v37_apply, val_main_v36_apply,
    val_main_v35_apply, val_main_v34_apply, val_main_v33_apply, val_main_v32_apply, val_main_v31_apply, val_main_cst_7_apply,
    val_main_v30_apply, val_main_v29_apply, val_main_cst_6_apply, val_main_v28_apply, val_main_v27_apply, val_main_v26_apply,
    val_main_cst_5_apply, val_main_v25_apply, val_main_v24_apply, val_main_v23_apply, val_main_v22_apply, val_main_v21_apply,
    val_main_v20_apply, val_main_v19_apply, val_main_cst_4_apply, val_main_v18_apply, val_main_v17_apply, val_main_v16_apply,
    val_main_cst_3_apply, val_main_v15_apply,
    Ideal.hostDivf_def, Ideal.addf_def, Ideal.subf_def, Ideal.mulf_def, Ideal.hostNegf_def, Ideal.negf_def, Ideal.ofBits_def,
    i18, i21, i33, i34, pt_full, ps_full, ts_full]
  unfold maskCost diceCost
  rw [zero_word_sub]

/-- The reference's result is the class term plus the pair-cost array. -/
theorem result_eq :
    val_main_v50 (F := Ideal) x0 x1 x2 x3
      = addf (F := Ideal) (φ := .f32) (val_main_v44 (F := Ideal) x0 x3) (pairArr (predArr x1) (targArr x2)) := by
  funext i
  obtain ⟨b, n, q, rfl⟩ : ∃ (b : Fin 4) (n : Fin 100) (q : Fin 20), i = ix3 b n q := ⟨i 0, i 1, i 2, eq_ix3 i⟩
  rw [entry, add_assoc]
  rfl

end Cert.ReferenceIdeal.RefCost

end
-- ==== Proof.lean ====
/-
  A matching cost between predicted and target masks: the tiled kernel against the plain formula.

  For each batch b, prediction n and target m, with p the sigmoid of the predicted mask and t the target mask over the
  65536 pixels, both programs compute
      −logits[b, n, label[b, m]]  +  mask(pt, ps, ts)  +  dice(pt, ps, ts),
  where pt = Σ p·t, ps = Σ p, ts = Σ t over the pixels,
      mask = (0 − pt)/65536 − (((65536 − ps) − ts) + pt)/65536,   dice = 1 − (2·pt + 1)/((ps + ts) + 1).

  The kernel walks a grid of 4 batches × 4 pixel tiles of 16384 pixels: each step adds its tile's share to three running
  sums kept between steps (started from zero at a batch's first tile), and the fourth step of a batch turns the three sums
  into mask + dice for every (n, m); the class term is looked up and added after the kernel. The reference takes the three
  sums in one piece each. Over the extended reals a sum taken tile by tile is the whole sum, zero less x is −x, the
  sigmoid as one operation is 1/(1 + e^(−x)), and (a + b) + c = a + (b + c): none of this needs the inputs to be finite,
  so the precondition is never opened. The class look-up is the same chain of operations in both programs and is carried
  as one term, never unfolded.

  Modules: CostSpec (the sums and the cost as functions of the arrays), Pieces (what one step leaves in each buffer),
  Payloads (those values read at coordinates; one tile more), Sums (the running sums by induction over a batch's steps),
  Result (the region's array from its four written blocks, then the lines after the region), RefCost (the reference entry
  by entry), and the two small library modules LibKeepdims and LibLogistic.
-/
import proofs.«171785_j16990890623199_2_alg».proof.Defs
import proofs.«171785_j16990890623199_2_alg».proof.Proof.Gen.Kernel
import proofs.«171785_j16990890623199_2_alg».proof.Proof.Gen.Kernel.Skeleton
import proofs.«171785_j16990890623199_2_alg».proof.Proof.Gen.Kernel.Launch
import proofs.«171785_j16990890623199_2_alg».proof.Proof.Gen.Kernel.Points
import proofs.«171785_j16990890623199_2_alg».proof.Proof.Gen.Kernel.Frame
import proofs.«171785_j16990890623199_2_alg».proof.Proof.Gen.KernelIdeal
import proofs.«171785_j16990890623199_2_alg».proof.Proof.Gen.KernelIdeal.Skeleton
import proofs.«171785_j16990890623199_2_alg».proof.Proof.Gen.KernelIdeal.Launch
import proofs.«171785_j16990890623199_2_alg».proof.Proof.Gen.KernelIdeal.Points
import proofs.«171785_j16990890623199_2_alg».proof.Proof.Gen.KernelIdeal.Frame
import proofs.«171785_j16990890623199_2_alg».proof.Proof.Gen.ReferenceIdeal
import proofs.«171785_j16990890623199_2_alg».proof.Proof.Gen.Pre_finite_inputs
import proofs.«171785_j16990890623199_2_alg».proof.Proof.Gen.ReferenceIdeal.Run
import proofs.«171785_j16990890623199_2_alg».proof.Proof.Gen.ReferenceIdeal.Read
import proofs.«171785_j16990890623199_2_alg».proof.Proof.Result
import proofs.«171785_j16990890623199_2_alg».proof.Proof.RefCost
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end with the class term plus the pair-cost array of the same merged-pixel arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefCost.result_eq,
    (hagree c).1, (hagree c).2.1, (hagree c).2.2.1, (hagree c).2.2.2]
  show _ = Cert.KernelIdeal.Result.hostTail _ _
    (Cert.CostSpec.pairArr (Cert.KernelIdeal.Sums.predArr m c) (Cert.KernelIdeal.Sums.targArr m c))
  rw [Cert.KernelIdeal.Result.pred_eq m c, Cert.KernelIdeal.Result.targ_eq m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
